-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S128x128x8x8 : Shape := ⟨4, ![128, 128, 8, 8]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S128x128x8x8 : S_.BroadcastsInDim S128x128x8x8 (![] : Fin 0 → Fin S128x128x8x8.rank)
  reducesTo_S128x128x8x8_S_d0_1_2_3 : S128x128x8x8.ReducesTo [0, 1, 2, 3] S_

variable [Facts]

def fn {F : FTy → Type} [FloatOps F] (main_arg0 : FVec F S16384x1024 .f32) (main_arg1 : FVec F S128x128x8x8 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S128x128x8x8 .f32 := Host.absf main_arg1
  let main_cst_0 : FVec F S_ .f32 := constant S_ .f32 0x7F800000#32
  let main_v5 : FVec F S128x128x8x8 .f32 := broadcastInDim S128x128x8x8 ![] bcast_S_S128x128x8x8 main_cst_0
  let main_v6 : IVec S128x128x8x8 1 := cmpf .olt main_v4 main_v5
  let main_c_1 : IVec S_ 1 := constantI S_ 1 1#1
  let main_v7 : IVec S_ 1 := (fun x v => Host.reduce IntOp.andi x v reducesTo_S128x128x8x8_S_d0_1_2_3 h_S_) main_v6 main_c_1
  let main_v8 : IVec S_ 1 := andi main_v3 main_v7
  main_v8
-- ==== Kernel.lean ====
abbrev S16384x1024 : Shape := ⟨2, ![16384, 1024]⟩
abbrev S128x128x8x8 : Shape := ⟨4, ![128, 128, 8, 8]⟩
abbrev S128x8x128x8 : Shape := ⟨4, ![128, 8, 128, 8]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S128x128x8x8, .f32⟩
  | .hbm, ⟨2, _⟩ => ⟨S128x8x128x8, .f32⟩
  | .hbm, ⟨3, _⟩ => ⟨S1024x1024, .f32⟩
  | .hbm, ⟨4, _⟩ => ⟨S1024x1024, .bf16⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x128x8x8_S128x8x128x8_1_3_0_2 : S128x128x8x8.Transposes [1, 3, 0, 2] S128x8x128x8
  shapeCasts_S128x8x128x8_S1024x1024 : S128x8x128x8.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .f32 = 32 ∨ (Rect.block (s := S16384x1024) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S128x128x8x8 : Shape := ⟨4, ![128, 128, 8, 8]⟩
abbrev S128x8x128x8 : Shape := ⟨4, ![128, 8, 128, 8]⟩
abbrev S1024x1024 : Shape := ⟨2, ![1024, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S128x128x8x8, .f32⟩
  | .hbm, ⟨2, _⟩ => ⟨S128x8x128x8, .f32⟩
  | .hbm, ⟨3, _⟩ => ⟨S1024x1024, .f32⟩
  | .hbm, ⟨4, _⟩ => ⟨S16384x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩

abbrev nD : Nat := 1
abbrev τ : Topo := Topo.v7x

variable {F : FTy → Type} [FloatOps F]

class Facts₀ : Prop where
  transposes_S128x128x8x8_S128x8x128x8_0_2_1_3 : S128x128x8x8.Transposes [0, 2, 1, 3] S128x8x128x8
  shapeCasts_S128x8x128x8_S1024x1024 : S128x8x128x8.ShapeCasts S1024x1024
  bcast_S_S16384x1024 : S_.BroadcastsInDim S16384x1024 (![] : Fin 0 → Fin S16384x1024.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.BlockLinearSpec.lean ====
/-
  The function both programs compute, stated once over literal shapes.

  A weight table `w : [128, 128, 8, 8]` holds a dense `1024 × 1024` matrix in `8 × 8` miniblocks: the dense
  entry at (output channel `o`, input channel `k`) is `w[o / 8, k / 8, o % 8, k % 8]` (`wAt`). The layer sends
  a row `x[n, ·]` of the `[16384, 1024]` input to `∑ k, x[n, k] · W[o, k]` (`linear`) and clamps the sum into
  `[0, 6]` by a maximum with `0` followed by a minimum with `6` (`clipLinear`). Everything is over the extended
  reals; the two clamp bounds are kept as the float words both programs spell, and only the order of the two
  lattice operations matters, never their values.
-/
import Idealize.ShloMosaic.PureOps.Ideal
import Idealize.ShloMosaic.Lib.ValueIdx

noncomputable section

namespace Cert.BlockLinear

open Idealize.ShloMosaic Idealize.ShloMosaic.ValueIdx

/-- The input's shape: 16384 rows of 1024 input channels. -/
abbrev SX : Shape := ⟨2, ![16384, 1024]⟩
/-- The weight table's shape: a 128 × 128 grid of 8 × 8 miniblocks. -/
abbrev SW : Shape := ⟨4, ![128, 128, 8, 8]⟩

/-- Where the dense weight's entry (output channel `o`, input channel `k`) sits in the table of miniblocks:
    block row `o / 8`, block column `k / 8`, and inside the block row `o % 8`, column `k % 8`. -/
abbrev wAt (o k : Fin 1024) : SW.Idx :=
  ix4 (⟨o.val / 8, by have := o.isLt; omega⟩ : Fin 128) (⟨k.val / 8, by have := k.isLt; omega⟩ : Fin 128)
    (⟨o.val % 8, by omega⟩ : Fin 8) (⟨k.val % 8, by omega⟩ : Fin 8)

/-- Row `n` of the input against row `o` of the dense weight: `∑ k, x[n, k] · W[o, k]`. -/
def linear (x : FVec Ideal SX .f32) (w : FVec Ideal SW .f32) (n : Fin 16384) (o : Fin 1024) : EReal :=
  ∑ k : Fin 1024, x (ix2 n k) * w (wAt o k)

/-- The layer's output: the linear map clamped from below by `0`, then from above by `6`. -/
def clipLinear (x : FVec Ideal SX .f32) (w : FVec Ideal SW .f32) : FVec Ideal SX .f32 := fun i =>
  min (Ideal.ofBits .f32 0x40C00000#32) (max (Ideal.ofBits .f32 0x00000000#32) (linear x w (i 0) (i 1)))

end Cert.BlockLinear

end
-- ==== Proof.TileProduct.lean ====
/-
  One grid step's arithmetic, entry by entry.

  The body takes a `1024 × 1024` tile `a` of input rows and the whole `1024 × 1024` weight operand `b` (input
  channel × output channel), multiplies them into a zero tile, and clamps. Over the extended reals the changes of
  float format are the identity and the product into the zero tile is the plain sum over the contracted axis, so the
  entry at (row `r`, output channel `o`) is `min 6 (max 0 (∑ k, a[r, k] · b[k, o]))`.
-/
import proofs.«140632_j24936580121058_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.BlockLinear.Kernel

open Cert.KernelIdeal Cert.KernelIdeal.Gen
open Idealize.ShloMosaic Idealize.ShloMosaic.ValueIdx

/-- The product's dimension record: the left operand's axis 1 is contracted with the right operand's axis 0. -/
abbrev D := dot_S1024x1024_S1024x1024_S1024x1024_1_0_0_1_n_n

/-- The left operand is read in the output's row … -/
theorem lhs_row (j : S1024x1024.Idx) (q : D.contr.Idx) : (D.lhsIdx j q 0).val = (j 0).val := by
  unfold DotDims.lhsIdx
  rw [dif_neg (show ¬(0 : Fin S1024x1024.rank) ∈ D.lhsBatch by decide),
    dif_pos (show (0 : Fin S1024x1024.rank) ∈ D.lhsNonContracting by decide)]
  rfl
/-- … at the contraction's position; -/
theorem lhs_col (j : S1024x1024.Idx) (q : D.contr.Idx) : (D.lhsIdx j q 1).val = (q ⟨0, by decide⟩).val :=
  D.lhsIdx_val_of_single rfl j q
/-- the right operand at the contraction's position … -/
theorem rhs_row (j : S1024x1024.Idx) (q : D.contr.Idx) : (D.rhsIdx j q 0).val = (q ⟨0, by decide⟩).val :=
  D.rhsIdx_val_of_single rfl j q
/-- … in the output's column. -/
theorem rhs_col (j : S1024x1024.Idx) (q : D.contr.Idx) : (D.rhsIdx j q 1).val = (j 1).val := by
  unfold DotDims.rhsIdx
  rw [dif_neg (show ¬(1 : Fin S1024x1024.rank) ∈ D.rhsBatch by decide),
    dif_pos (show (1 : Fin S1024x1024.rank) ∈ D.rhsNonContracting by decide)]
  rfl

/-- The matrix product into a zero tile, read at an entry: the sum over the contracted axis of the products. -/
theorem product_apply (a b : FVec Ideal S1024x1024 .bf16) (j : S1024x1024.Idx) :
    matmul D none a b (constant S1024x1024 .f32 0x00000000#32) j
      = ∑ k : Fin 1024, a (ix2 (j 0) k) * b (ix2 k (j 1)) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx j ((contrEquiv1 D 1024 rfl rfl).symm k) = ix2 (j 0) k := funext fun d => Fin.ext (by
    match d with
    | ⟨0, _⟩ => exact lhs_row _ _
    | ⟨1, _⟩ => exact (lhs_col _ _).trans hk)
  have er : D.rhsIdx j ((contrEquiv1 D 1024 rfl rfl).symm k) = ix2 k (j 1) := funext fun d => Fin.ext (by
    match d with
    | ⟨0, _⟩ => exact (rhs_row _ _).trans hk
    | ⟨1, _⟩ => exact rhs_col _ _)
  rw [el, er]
  rfl

/-- What one grid step stores, at (row `j 0`, output channel `j 1`) of its tile: the clamped sum of products of the
    loaded input tile's row with the loaded weight operand's column. -/
theorem tile_apply (a : Vec Ideal S1024x1024 .f32) (b : Vec Ideal S1024x1024 .bf16) (j : S1024x1024.Idx) :
    k0_pay1 a b j = min (Ideal.ofBits .f32 0x40C00000#32)
      (max (Ideal.ofBits .f32 0x00000000#32) (∑ k : Fin 1024, a (ix2 (j 0) k) * b (ix2 k (j 1)))) := by
  unfold k0_pay1
  rw [shapeCast_self]
  exact congrArg (fun s => min (Ideal.ofBits .f32 0x40C00000#32) (max (Ideal.ofBits .f32 0x00000000#32) s))
    (product_apply (truncf .bf16 a bitsLt_bf16_f32) b j)

end Cert.BlockLinear.Kernel

end
-- ==== Proof.WeightOperand.lean ====
/-
  The weight operand the grid finds.

  Before the grid runs, the table `w : [p, q, a, b]` is transposed by `[1, 3, 0, 2]` to `[q, b, p, a]`, flattened to a
  `1024 × 1024` matrix (input channel `8q + b` × output channel `8p + a`) and changed of float format, which over the
  extended reals is the identity. So its entry at (input channel `k`, output channel `o`) is the table's entry for the
  dense weight at `(o, k)`: row-major position `1024·k + o` of `[128, 8, 128, 8]` has coordinates
  `(k / 8, k % 8, o / 8, o % 8)`, which the transpose reads at `[o / 8, k / 8, o % 8, k % 8]`.
-/
import proofs.«140632_j24936580121058_2_alg».proof.Proof.Gen.KernelIdeal.Frame
import proofs.«140632_j24936580121058_2_alg».proof.Proof.BlockLinearSpec
import Idealize.ShloMosaic.Lib.Pipeline.Value
import Idealize.ShloMosaic.Lib.ValueIdx
import Idealize.ShloMosaic.Lib.StableHlo.Run

noncomputable section

namespace Cert.BlockLinear.Kernel

open Cert.KernelIdeal Cert.KernelIdeal.Gen Cert.BlockLinear
open Idealize.ShloMosaic Idealize.ShloMosaic.TcCoe Idealize.ShloMosaic.ValueIdx Idealize.SL.Sem
open Idealize.ShloMosaic.StableHlo

/-- The transposed, flattened table at (input channel `k`, output channel `o`) is the dense weight's entry `(o, k)`. -/
theorem assembled_apply (w : FVec Ideal S128x128x8x8 .f32) (k o : Fin 1024) :
    (truncf .bf16 (shapeCast S1024x1024 (transpose S128x8x128x8 [1, 3, 0, 2] w
        transposes_S128x128x8x8_S128x8x128x8_1_3_0_2) shapeCasts_S128x8x128x8_S1024x1024) bitsLt_bf16_f32
      : FVec Ideal S1024x1024 .bf16) (ix2 k o) = w (wAt o k) := by
  have hk : k.val < 1024 := k.isLt
  have ho : o.val < 1024 := o.isLt
  rw [truncf_apply]
  rw [shapeCast_apply _ shapeCasts_S128x8x128x8_S1024x1024 (ix2 k o)
    (ix4 (⟨k.val / 8, by omega⟩ : Fin 128) (⟨k.val % 8, by omega⟩ : Fin 8) (⟨o.val / 8, by omega⟩ : Fin 128) (⟨o.val % 8, by omega⟩ : Fin 8))
    (by rewrite [Shape.rowMajor_val_four, Shape.rowMajor_val_two]
        show ((k.val / 8 * 8 + k.val % 8) * 128 + o.val / 8) * 8 + o.val % 8 = k.val * 1024 + o.val
        omega)]
  exact transpose_apply [1, 3, 0, 2] w transposes_S128x128x8x8_S128x8x128x8_1_3_0_2 _ (wAt o k) (fun d => match d with
    | ⟨0, _⟩ => rfl
    | ⟨1, _⟩ => rfl
    | ⟨2, _⟩ => rfl
    | ⟨3, _⟩ => rfl)

variable (m : (ℓ : Loc nD τ sig) → Buf (Elt Ideal) ℓ)

/-- The array the second window stages, as the grid finds it, is that assembled matrix of the launch's table. -/
theorem weight_operand (c : Dev nD) :
    @Eq (FVec Ideal S1024x1024 .bf16) (V m c main_v2)
      (truncf .bf16 (shapeCast S1024x1024 (transpose S128x8x128x8 [1, 3, 0, 2] (m ((c : Thread nD τ).loc main_arg1))
          transposes_S128x128x8x8_S128x8x128x8_1_3_0_2) shapeCasts_S128x8x128x8_S1024x1024) bitsLt_bf16_f32) := by
  dsimp only [Gen.V, Gen.hostOps0]; after_results; rfl

/-- Its entry at (input channel `k`, output channel `o`). -/
theorem weight_operand_apply (c : Dev nD) (k o : Fin 1024) :
    (V m c main_v2 : FVec Ideal S1024x1024 .bf16) (ix2 k o) = m ((c : Thread nD τ).loc main_arg1) (wAt o k) :=
  (congrFun (weight_operand m c) (ix2 k o)).trans (assembled_apply _ k o)

end Cert.BlockLinear.Kernel

end
-- ==== Proof.RowBlocks.lean ====
/-
  From the sixteen row tiles to the whole output.

  The grid has sixteen points; point `t` takes rows `1024·t … 1024·t + 1023` of the input (all 1024 columns), the whole
  weight operand, and writes rows `1024·t … 1024·t + 1023` of the output. So the tile that point `t` writes back is
  `clipLinear` of the launch's two arguments read through the output's block at `t`: its entry `(r, o)` is the clamped
  sum over `k` of `x[1024·t + r, k]` times the weight operand's `[k, o]`, which is the table's entry for the dense weight
  at `(o, k)`. Every output row `n` lies in the block of point `n / 1024`, so the blocks cover the array and the array
  ends holding `clipLinear` everywhere.
-/
import proofs.«140632_j24936580121058_2_alg».proof.Proof.Gen.KernelIdeal.Value
import proofs.«140632_j24936580121058_2_alg».proof.Proof.BlockLinearSpec
import proofs.«140632_j24936580121058_2_alg».proof.Proof.TileProduct
import proofs.«140632_j24936580121058_2_alg».proof.Proof.WeightOperand

noncomputable section

namespace Cert.BlockLinear.Kernel

open Cert.KernelIdeal Cert.KernelIdeal.Gen Cert.BlockLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The body's one rectangle starts at the tile's origin. -/
theorem origin : (![0, 0] : Fin 2 → Nat) = fun _ => 0 := funext fun a => by fin_cases a <;> rfl

/-- The three index maps, decided over the sixteen points: the input's block row is the output's, which is the point's
    number; every other block coordinate is `0`. -/
theorem block_index : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- The input tile at point `t`, at (row `j 0`, column `k`), is the launch's input at the output block's row for `j`
    and column `k`. -/
theorem input_tile_read (c : Dev nD) (t : Fin cfg0.N) (j : S1024x1024.Idx) (k : Fin 1024) :
    iblk m c 0 t (ix2 (j 0) k)
      = m ((c : Thread nD τ).loc main_arg0) (ix2 ((((cfg0.win 2).blk t).view.emb j) 0) k) := by
  obtain ⟨e00, e01, -, -, -, -⟩ := block_index t
  show V m c main_arg0 (((cfg0.win 0).blk t).view.emb (ix2 (j 0) k)) = _
  rw [V_main_arg0]
  refine congrArg _ (funext fun a => Fin.ext ?_)
  match a with
  | ⟨0, _⟩ =>
    show win0_0.index t (0 : Fin 2) * 1024 + 1 * (j 0).val = win0_2.index t (0 : Fin 2) * 1024 + 1 * (j 0).val
    omega
  | ⟨1, _⟩ =>
    show win0_0.index t (1 : Fin 2) * 1024 + 1 * k.val = k.val
    omega

/-- The weight tile at any point is the whole weight operand: at (input channel `k`, column `j 1`) it is the table's
    entry for the dense weight at (the output block's channel for `j`, `k`). -/
theorem weight_tile_read (c : Dev nD) (t : Fin cfg0.N) (j : S1024x1024.Idx) (k : Fin 1024) :
    iblk m c 1 t (ix2 k (j 1))
      = m ((c : Thread nD τ).loc main_arg1) (wAt ((((cfg0.win 2).blk t).view.emb j) 1) k) := by
  obtain ⟨-, -, e10, e11, e21, -⟩ := block_index t
  show (V m c main_v2 : FVec Ideal S1024x1024 .bf16) (((cfg0.win 1).blk t).view.emb (ix2 k (j 1))) = _
  have e : ((cfg0.win 1).blk t).view.emb (ix2 k (j 1)) = ix2 k ((((cfg0.win 2).blk t).view.emb j) 1) :=
    funext fun a => Fin.ext (by
      match a with
      | ⟨0, _⟩ =>
        show win0_1.index t (0 : Fin 2) * 1024 + 1 * k.val = k.val
        omega
      | ⟨1, _⟩ =>
        show win0_1.index t (1 : Fin 2) * 1024 + 1 * (j 1).val = win0_2.index t (1 : Fin 2) * 1024 + 1 * (j 1).val
        omega)
  rw [e]
  exact weight_operand_apply m c k _

/-- What point `t` writes back is `clipLinear` of the launch's arguments, read through the output's block at `t`. -/
theorem flushed_eq (c : Dev nD) (t : Fin cfg0.N) :
    (dats m 0 c).flushed 2 t = ((cfg0.win 2).blk t).view.read (Elt Ideal)
      (clipLinear (m ((c : Thread nD τ).loc main_arg0)) (m ((c : Thread nD τ).loc main_arg1))) := by
  rw [Cert.KernelIdeal.Value.flushed2]
  unfold out0_2
  rw [View.canon_unit_zero origin]
  simp only [View.ld_unit_zero (S := S1024x1024) origin]
  funext j
  show k0_pay1 (iblk m c 0 t) (iblk m c 1 t) j
    = clipLinear (m ((c : Thread nD τ).loc main_arg0)) (m ((c : Thread nD τ).loc main_arg1)) (((cfg0.win 2).blk t).view.emb j)
  rw [tile_apply]
  unfold clipLinear linear
  simp only [input_tile_read, weight_tile_read]

/-- An index of the output lies in point `t`'s block iff each coordinate lies in the block's range on its axis. -/
theorem mem_block (t : Fin cfg0.N) (i : S16384x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v3).slice (win0_2.rect t)).set ↔ _
  rw [View.set_slice_whole, Rect.mem_set_unit]
  exact Iff.rfl

/-- Every index of the output lies in the block of the point numbered by its row divided by 1024. -/
theorem covered (i : S16384x1024.Idx) :
    ∃ t : Fin cfg0.N, (cfg0.win 2).flush t = true ∧ i ∈ ((cfg0.win 2).blk t).view.set := by
  have h0 : (i 0).val < 16384 := (i 0).isLt
  have h1 : (i 1).val < 1024 := (i 1).isLt
  obtain ⟨t, ht⟩ : ∃ t : Fin cfg0.N, t.val = (i 0).val / 1024 :=
    ⟨⟨(i 0).val / 1024, by rw [show cfg0.N = 16 from N_0]; omega⟩, rfl⟩
  obtain ⟨-, -, -, -, e21, e20⟩ := block_index t
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- The output array after the run is `clipLinear` of the launch's arguments. -/
theorem final (c : Dev nD) :
    (dats m 0 c).arrAt 2 cfg0.N
      = clipLinear (m ((c : Thread nD τ).loc main_arg0)) (m ((c : Thread nD τ).loc main_arg1)) :=
  (dats m 0 c).arrAt_eq_of_cover 2 _ (fun t _ => flushed_eq m c t) covered

/-- Every weakly fair execution of the kernel's program terminates with the result at `clipLinear` of the arguments and
    the arguments unchanged. -/
theorem run : θ_run defs (onTc (τ := τ) (main (F := Ideal))) ⟨m, fun _ => 0, ρ⟩ fun r => ∀ c : Dev nD,
      r.2.mem ((c : Thread nD τ).loc main_v3)
        = clipLinear (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.BlockLinear.Kernel

end
-- ==== Proof.ReferenceIsSpec.lean ====
/-
  The reference computes `clipLinear`.

  The reference lays the table out as `[p, a, q, b]` (a transpose by `[0, 2, 1, 3]`), flattens it to the dense
  `W : [1024, 1024]` with `W[8p + a, 8q + b] = w[p, q, a, b]`, contracts the input's second axis with `W`'s second axis,
  and clamps. Reading each operation at an index: the product's factor at `(o, k)` is the table's entry at
  `(o / 8, k / 8, o % 8, k % 8)` — row-major position `1024·o + k` of `[128, 8, 128, 8]` has coordinates
  `(o / 8, o % 8, k / 8, k % 8)`, which the transpose sends back to `[p, q, a, b]` order.
-/
import proofs.«140632_j24936580121058_2_alg».proof.Proof.Gen.ReferenceIdeal.Read
import proofs.«140632_j24936580121058_2_alg».proof.Proof.BlockLinearSpec

noncomputable section

namespace Cert.BlockLinear.Reference

open Cert.ReferenceIdeal Cert.ReferenceIdeal.Read Cert.BlockLinear
open Idealize.ShloMosaic Idealize.ShloMosaic.ValueIdx

/-- The left factor of the contraction at output `i`, step `k`, is the input at row `i 0`, column `k`. -/
theorem input_idx (i : S16384x1024.Idx) (k : Fin 1024) : lidx_main_v2 i k = ix2 (i 0) k :=
  funext fun a => Fin.ext (by match a with | ⟨0, _⟩ => rfl | ⟨1, _⟩ => rfl)

/-- The right factor at output `i`, step `k`, traced back through the flattening and the transpose, is the table's
    entry for the dense weight at (output channel `i 1`, input channel `k`). -/
theorem weight_idx (i : S16384x1024.Idx) (k : Fin 1024) :
    idx_main_v0 (idx_main_v1 (ridx_main_v2 i k)) = wAt (i 1) k := by
  have ho : (i 1).val < 1024 := (i 1).isLt
  have hk : k.val < 1024 := k.isLt
  funext a; apply Fin.ext
  match a with
  | ⟨0, _⟩ => show ((i 1).val * 1024 + k.val) / 8192 = (i 1).val / 8; omega
  | ⟨1, _⟩ => show ((i 1).val * 1024 + k.val) / 8 % 128 = k.val / 8; omega
  | ⟨2, _⟩ => show ((i 1).val * 1024 + k.val) / 1024 % 8 = (i 1).val % 8; omega
  | ⟨3, _⟩ => show ((i 1).val * 1024 + k.val) % 8 = k.val % 8; omega

/-- The reference's result, as a function of its two arguments, is `clipLinear`. -/
theorem result_eq (x : FVec Ideal SX .f32) (w : FVec Ideal SW .f32) :
    val_main_v3 (F := Ideal) x w = clipLinear x w := by
  funext i
  rw [val_main_v3_apply, val_main_call0_v4_apply, val_main_call0_v3_apply, val_main_cst_0_apply,
    val_main_call0_v2_apply, val_main_call0_v1_apply, val_main_call0_v0_apply, val_main_cst_apply,
    val_main_v2_apply]
  unfold clipLinear linear
  simp only [val_main_v1_apply, val_main_v0_apply, weight_idx, input_idx]
  rfl

end Cert.BlockLinear.Reference

end
-- ==== Proof.lean ====
/-
  A block-structured linear layer with a clamped activation, computed two ways.

  The weight is a table `w : [128, 128, 8, 8]` of `8 × 8` miniblocks of a dense `1024 × 1024` matrix `W`,
  `W[8p + a, 8q + b] = w[p, q, a, b]`; the layer maps `x : [16384, 1024]` to `min 6 (max 0 (x · Wᵀ))`.

  The reference assembles `W` (a transpose of the table by `[0, 2, 1, 3]` and a flattening), contracts `x`'s columns with
  `W`'s columns in one product, and clamps. The kernel assembles `Wᵀ` instead (a transpose by `[1, 3, 0, 2]` and a
  flattening), narrows it to a sixteen-bit float format, and runs a grid of sixteen points: each takes 1024 rows of
  `x`, narrows them, multiplies them with the whole of `Wᵀ` into a zero tile, clamps, and writes 1024 rows of the output.

  Over the extended reals a change of float format is the identity and a product into a zero tile is the plain sum over
  the contracted axis, so both sides are, entry by entry, `min 6 (max 0 (∑ k, x[n, k] · w[o / 8, k / 8, o % 8, k % 8]))`
  (`BlockLinear.clipLinear`): the reference's `W[o, k]` and the kernel's `Wᵀ[k, o]` are the same table entry, the
  sums run over the same index in the same order, and the clamp is the same two lattice operations with the same
  bounds. No law of arithmetic beyond that rearrangement of indices is used, so the inputs' finiteness is never opened.

  `BlockLinearSpec` states the function; `ReferenceIsSpec` reads the reference's operations at an index;
  `WeightOperand` reads the kernel's assembled weight at an index, `TileProduct` one grid step's arithmetic at an entry,
  and `RowBlocks` puts the sixteen row tiles together into the whole output. The three frames are the generated ones
  (the reference's is its run with the result dropped); the kernel is its own idealization, so nothing is owed there.
-/
import proofs.«140632_j24936580121058_2_alg».proof.Defs
import proofs.«140632_j24936580121058_2_alg».proof.Proof.Gen.Kernel
import proofs.«140632_j24936580121058_2_alg».proof.Proof.Gen.Kernel.Frame
import proofs.«140632_j24936580121058_2_alg».proof.Proof.Gen.KernelIdeal
import proofs.«140632_j24936580121058_2_alg».proof.Proof.Gen.KernelIdeal.Frame
import proofs.«140632_j24936580121058_2_alg».proof.Proof.Gen.KernelIdeal.Value
import proofs.«140632_j24936580121058_2_alg».proof.Proof.Gen.ReferenceIdeal
import proofs.«140632_j24936580121058_2_alg».proof.Proof.Gen.ReferenceIdeal.Run
import proofs.«140632_j24936580121058_2_alg».proof.Proof.Gen.ReferenceIdeal.Read
import proofs.«140632_j24936580121058_2_alg».proof.Proof.Gen.Pre_finite_inputs
import proofs.«140632_j24936580121058_2_alg».proof.Proof.RowBlocks
import proofs.«140632_j24936580121058_2_alg».proof.Proof.ReferenceIsSpec
import Idealize.ShloMosaic.Adequacy
import Idealize.ShloMosaic.Init

noncomputable section

namespace Cert.Proof

open Idealize.ShloMosaic Idealize.SL.Sem

/-- The kernel's program, on float words, terminates without a fault and leaves its arguments as they were. -/
theorem frame_kernel : Cert.frame_Kernel := fun m ρ _ => Cert.Kernel.Gen.frame m ρ

/-- So does the same program read over the extended reals. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's text is its own idealization: no operation was rewritten, so there is nothing to restate. -/
theorem preserves : Cert.preserves_Kernel_KernelIdeal := trivial

/-- From memories that agree on `x` and `w`, both programs end with the output array at `clipLinear x w`: the kernel
    by its sixteen row tiles, the reference by reading its operations at an index. -/
theorem algebraic : Cert.algebraic_KernelIdeal_ReferenceIdeal := by
  intro m ρ m' ρ' _ hagree
  refine ⟨_, Cert.BlockLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v3_eq _ _).trans (Cert.BlockLinear.Reference.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
